-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64x32 : S_.BroadcastsInDim S64x32 (![] : Fin 0 → Fin S64x32.rank)
  reducesTo_S64x32_S_d0_1 : S64x32.ReducesTo [0, 1] S_

variable [Facts]

def fn_part1 {F : FTy → Type} [FloatOps F] (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x64 .f32) (main_arg5 : FVec F S64x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S100000x64 : Shape := ⟨2, ![100000, 64]⟩
abbrev S5000x128 : Shape := ⟨2, ![5000, 128]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩
abbrev S100000x32 : Shape := ⟨2, ![100000, 32]⟩
abbrev S5000x32 : Shape := ⟨2, ![5000, 32]⟩
abbrev S1600000x32 : Shape := ⟨2, ![1600000, 32]⟩

abbrev nBuf : Space → Nat
  | .hbm => 42
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64x32, .f32⟩
  | .hbm, ⟨6, _⟩ => ⟨S100000x64, .bf16⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .bf16⟩
  | .hbm, ⟨17, _⟩ => ⟨S1600000x64, .f32⟩
  | .hbm, ⟨18, _⟩ => ⟨S1600000x64, .f32⟩
  | .hbm, ⟨19, _⟩ => ⟨S1600000x64, .f32⟩
  | .hbm, ⟨20, _⟩ => ⟨S_, .f32⟩
  | .hbm, ⟨21, _⟩ => ⟨S100000x64, .f32⟩
  | .hbm, ⟨22, _⟩ => ⟨S1600000x1, .i32⟩
  | .hbm, ⟨23, _⟩ => ⟨S100000x64, .f32⟩
  | .hbm, ⟨24, _⟩ => ⟨S100000x32, .bf16⟩
  | .hbm, ⟨25, _⟩ => ⟨S1600000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x32, .bf16⟩
  | .hbm, ⟨35, _⟩ => ⟨S1600000x32, .f32⟩
  | .hbm, ⟨36, _⟩ => ⟨S1600000x32, .f32⟩
  | .hbm, ⟨37, _⟩ => ⟨S1600000x32, .f32⟩
  | .hbm, ⟨38, _⟩ => ⟨S_, .f32⟩
  | .hbm, ⟨39, _⟩ => ⟨S100000x32, .f32⟩
  | .hbm, ⟨40, _⟩ => ⟨S1600000x1, .i32⟩
  | .hbm, ⟨41, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .bf16⟩
  | .local _ .vmem, ⟨9, _⟩ => ⟨S5000x32, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  packedbf16_S5000x32_S5000x32_0_0 : (Rect.unit (s := S5000x32) ![0, 0] S5000x32.size inb_S5000x32_S5000x32_0_0).PackedRows (EltTy.packing .bf16)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .bf16 = 32 ∨ (Rect.block (s := S100000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .bf16 = 32 ∨ (Rect.block (s := S100000x32) S5000x32.size (cc1_transform_2 i) (hinb1_2 i)).WholeWords (EltTy.packing .bf16)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64x32 : Shape := ⟨2, ![64, 32]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩
abbrev S100000x32 : Shape := ⟨2, ![100000, 32]⟩
abbrev S1600000x32 : Shape := ⟨2, ![1600000, 32]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x64, .f32⟩
  | .hbm, ⟨5, _⟩ => ⟨S64x32, .f32⟩
  | .hbm, ⟨6, _⟩ => ⟨S100000x64, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x32, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x32, .f32⟩
  | .hbm, ⟨37, _⟩ => ⟨S1600000x32, .f32⟩
  | .hbm, ⟨38, _⟩ => ⟨S1600000x32, .f32⟩
  | .hbm, ⟨39, _⟩ => ⟨S_, .f32⟩
  | .hbm, ⟨40, _⟩ => ⟨S100000x32, .f32⟩
  | .hbm, ⟨41, _⟩ => ⟨S1600000x1, .i32⟩
  | .hbm, ⟨42, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.Tails.lean ====
/-
  The two stretches of host operations of the kernel's program, each as one function.

  Each stretch is the sparse product out[r] = ∑ over the edges e with row e = r of val e · h[col e]: the column indices
  are wrapped when negative, the rows `h[col e]` gathered (and widened from bf16, the identity on the extended reals),
  scaled by the edge values, and added into a zero array at the row indices. The fold of a stretch over any contents of
  the buffers, read at the stretch's result, is that function of the contents of the four buffers it reads; read at an
  argument it is the argument's contents.
-/
import proofs.«101274_j88467736363911_2_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The column indices as the gather takes them: a negative one moved up by the number of nodes, as a column vector. -/
def wrapCols (col : (⟨S1600000, .i32⟩ : BufTy).Contents (Elt F)) : (⟨S1600000x1, .i32⟩ : BufTy).Contents (Elt F) :=
  broadcastInDim S1600000x1 ![0] bcast_S1600000_S1600000x1_0
    (select (cmpi .slt col (broadcastInDim S1600000 ![] bcast_S_S1600000 (constantI S_ 32 0#32)))
      (addi col (broadcastInDim S1600000 ![] bcast_S_S1600000 (constantI S_ 32 100000#32))) col)

/-- The first sparse product, over 64 features: the gathered rows of `h` scaled by the edge values, added at the row indices. -/
def spmm64 (h : (⟨S100000x64, .bf16⟩ : BufTy).Contents (Elt F)) (row col : (⟨S1600000, .i32⟩ : BufTy).Contents (Elt F))
    (val : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 row)
    (mulf
      (broadcastInDim S1600000x64 ![0, 1] bcast_S1600000x1_S1600000x64_0_1
        (broadcastInDim S1600000x1 ![0] bcast_S1600000_S1600000x1_0 val))
      (extf .f32 (Host.gather gather_S100000x64_S1600000x1_S1600000x64_1_0_n_n_0_1_164 h (wrapCols col)) bitsLt_bf16_f32))

/-- The second sparse product, over 32 features. -/
def spmm32 (h : (⟨S100000x32, .bf16⟩ : BufTy).Contents (Elt F)) (row col : (⟨S1600000, .i32⟩ : BufTy).Contents (Elt F))
    (val : (⟨S1600000, .f32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 row)
    (mulf
      (broadcastInDim S1600000x32 ![0, 1] bcast_S1600000x1_S1600000x32_0_1
        (broadcastInDim S1600000x1 ![0] bcast_S1600000_S1600000x1_0 val))
      (extf .f32 (Host.gather gather_S100000x32_S1600000x1_S1600000x32_1_0_n_n_0_1_132 h (wrapCols col)) bitsLt_bf16_f32))

/-- The first stretch, read at its result: the first sparse product of the contents it starts from. -/
theorem after1_v14 (Wx : Valuation τ sig (Elt F)) :
    StableHlo.after (hostOps1 (F := F)) Wx (Proc.devRef .tc main_v14)
      = spmm64 (Wx (Proc.devRef .tc main_v0)) (Wx (Proc.devRef .tc main_arg1)) (Wx (Proc.devRef .tc main_arg2)) (Wx (Proc.devRef .tc main_arg3)) := by
  after_results
  rfl

/-- The first stretch writes none of the arguments the later segments read. -/
theorem after1_arg1 (Wx : Valuation τ sig (Elt F)) :
    StableHlo.after (hostOps1 (F := F)) Wx (Proc.devRef .tc main_arg1) = Wx (Proc.devRef .tc main_arg1) := by
  after_results
theorem after1_arg2 (Wx : Valuation τ sig (Elt F)) :
    StableHlo.after (hostOps1 (F := F)) Wx (Proc.devRef .tc main_arg2) = Wx (Proc.devRef .tc main_arg2) := by
  after_results
theorem after1_arg3 (Wx : Valuation τ sig (Elt F)) :
    StableHlo.after (hostOps1 (F := F)) Wx (Proc.devRef .tc main_arg3) = Wx (Proc.devRef .tc main_arg3) := by
  after_results
theorem after1_arg5 (Wx : Valuation τ sig (Elt F)) :
    StableHlo.after (hostOps1 (F := F)) Wx (Proc.devRef .tc main_arg5) = Wx (Proc.devRef .tc main_arg5) := by
  after_results

/-- The second stretch, read at the program's result: the second sparse product of the contents it starts from. -/
theorem after2_v29 (Wx : Valuation τ sig (Elt F)) :
    StableHlo.after (hostOps2 (F := F)) Wx (Proc.devRef .tc main_v29)
      = spmm32 (Wx (Proc.devRef .tc main_v15)) (Wx (Proc.devRef .tc main_arg1)) (Wx (Proc.devRef .tc main_arg2)) (Wx (Proc.devRef .tc main_arg3)) := by
  after_results
  rfl

end Cert.KernelIdeal.Hand

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.Pay0.lean ====
/-
  The first projection's block product, read at coordinates.

  At the ideal values the body of the first kernel takes a [5000, 128] block `a` of the node features and the whole
  [128, 64] weight matrix `w`, rounds both to bf16 (the identity on the extended reals), multiplies them into a zero
  accumulator and rounds the result again (the identity). So the stored block is, at (p, c),

      ∑ k : Fin 128, a (p, k) · w (k, c).
-/
import proofs.«101274_j88467736363911_2_alg».proof.Proof.Gen.KernelIdeal.Skeleton
import proofs.«101274_j88467736363911_2_alg».proof.Proof.LibPlainDot
import Idealize.ShloMosaic.Lib.ValueIdx

noncomputable section

namespace Cert.KernelIdeal.Hand

open Cert.KernelIdeal Cert.KernelIdeal.Gen Idealize.ShloMosaic Idealize.ShloMosaic.ValueIdx

/-- The dot's left operand index at output index `i` and contraction position `q` is `(i 0, q)`, its right one `(q, i 1)`. -/
theorem dot0_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot0_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot0_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot0_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The stored block at (p, c): the row `p` of the feature block against the column `c` of the weights. -/
theorem pay0_apply (a : Vec Ideal S5000x128 .f32) (w : Vec Ideal S128x64 .f32) (p : Fin 5000) (c : Fin 64) :
    k0_pay1 (F := Ideal) a w (ix2 p c) = ∑ k : Fin 128, a (ix2 p k) * w (ix2 k c) :=
  Cert.Lib.PlainDot.matmul_zero_ix2 (M := 5000) (K := 128) (N := 64) (φ₁ := .bf16) (φ₂ := .bf16)
    dot_S5000x128_S128x64_S5000x64_1_0_0_1_n_n rfl rfl dot0_l0 dot0_l1 dot0_r0 dot0_r1 none a w p c

end Cert.KernelIdeal.Hand

end
-- ==== Proof.Dense.lean ====
/-
  The two dense layers as functions of whole arrays, on the extended reals.

  `proj128 X W` is the product of the [100000, 128] node features with the [128, 64] weights: at (r, c) the sum over k of
  X (r, k) · W (k, c). `reluProj64 H W` is the product of the rectified [100000, 64] features max (H, 0) with the [64, 32]
  weights. The zero the features are rectified against is kept as the f32 word of both programs' literal.
-/
import Idealize.ShloMosaic.PureOps.Ideal
import Idealize.ShloMosaic.Lib.ValueIdx

noncomputable section

namespace Cert.Dense

open Idealize.ShloMosaic Idealize.ShloMosaic.ValueIdx

/-- The first layer's projection: the node features times the first weight matrix. -/
def proj128 (X : (⟨2, ![100000, 128]⟩ : Shape).Idx → EReal) (W : (⟨2, ![128, 64]⟩ : Shape).Idx → EReal) :
    (⟨2, ![100000, 64]⟩ : Shape).Idx → EReal :=
  fun i => ∑ k : Fin 128, X (ix2 (n0 := 100000) (i 0) k) * W (ix2 (n1 := 64) k (i 1))

theorem proj128_apply (X : (⟨2, ![100000, 128]⟩ : Shape).Idx → EReal) (W : (⟨2, ![128, 64]⟩ : Shape).Idx → EReal)
    (r : Fin 100000) (c : Fin 64) : proj128 X W (ix2 r c) = ∑ k : Fin 128, X (ix2 r k) * W (ix2 k c) := rfl

/-- The second layer's projection: the rectified aggregated features times the second weight matrix. -/
def reluProj64 (H : (⟨2, ![100000, 64]⟩ : Shape).Idx → EReal) (W : (⟨2, ![64, 32]⟩ : Shape).Idx → EReal) :
    (⟨2, ![100000, 32]⟩ : Shape).Idx → EReal :=
  fun i => ∑ k : Fin 64, max (H (ix2 (n0 := 100000) (i 0) k)) (Ideal.ofBits .f32 0x00000000#32) * W (ix2 (n1 := 32) k (i 1))

theorem reluProj64_apply (H : (⟨2, ![100000, 64]⟩ : Shape).Idx → EReal) (W : (⟨2, ![64, 32]⟩ : Shape).Idx → EReal)
    (r : Fin 100000) (c : Fin 32) :
    reluProj64 H W (ix2 r c) = ∑ k : Fin 64, max (H (ix2 r k)) (Ideal.ofBits .f32 0x00000000#32) * W (ix2 k c) := rfl

end Cert.Dense

end
-- ==== Proof.Region0.lean ====
/-
  What the first kernel region leaves in its result array: the node features times the first weight matrix.

  The region runs over 20 points; point t takes rows 5000 t … 5000 t + 4999 of the features (window 0), the whole
  weight matrix (window 1), and writes rows 5000 t … 5000 t + 4999 of the result (window 2). The block it writes is
  the block product of `Pay0`, which is those rows of `Dense.proj128` of the two arrays as the region finds them; the
  20 row blocks cover the result array, so the array ends holding `Dense.proj128` of them.
-/
import proofs.«101274_j88467736363911_2_alg».proof.Proof.Gen.KernelIdeal.Frame
import proofs.«101274_j88467736363911_2_alg».proof.Proof.Pay0
import proofs.«101274_j88467736363911_2_alg».proof.Proof.Dense
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The block indices of the three windows at a point, decided over the grid: the feature and result windows are at
    row block t, the weight window at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t, at (p, k), is the feature array at (5000 t + p, k). -/
theorem iblk0_0_apply (c : Dev nD) (t : Fin cfg0.N) (x : S5000x128.Idx) (j : S100000x128.Idx)
    (h0 : (j 0).val = t.val * 5000 + (x 0).val) (h1 : (j 1).val = (x 1).val) :
    (iblk0 V c 0 t : Vec Ideal S5000x128 .f32) x = (V c main_arg0 : S100000x128.Idx → EReal) j := by
  obtain ⟨e0, e1, -⟩ := idx_facts0 t
  unfold iblk0
  rw [View.read_apply]
  show V c main_arg0 _ = V c main_arg0 _
  refine congrArg (V c main_arg0) ?_
  funext a; apply Fin.ext
  match a with
  | ⟨0, _⟩ => show win0_0.index t (0 : Fin 2) * 5000 + 1 * (x 0).val = (j 0).val; omega
  | ⟨1, _⟩ => show win0_0.index t (1 : Fin 2) * 128 + 1 * (x 1).val = (j 1).val; omega

/-- The weight window's block at any point is the weight array. -/
theorem iblk0_1_apply (c : Dev nD) (t : Fin cfg0.N) (x : S128x64.Idx) :
    (iblk0 V c 1 t : Vec Ideal S128x64 .f32) x = (V c main_arg4 : S128x64.Idx → EReal) x := by
  obtain ⟨-, -, e2, e3, -⟩ := idx_facts0 t
  unfold iblk0
  rw [View.read_apply]
  show V c main_arg4 _ = V c main_arg4 _
  refine congrArg (V c main_arg4) ?_
  funext a; apply Fin.ext
  match a with
  | ⟨0, _⟩ => show win0_1.index t (0 : Fin 2) * 128 + 1 * (x 0).val = (x 0).val; omega
  | ⟨1, _⟩ => show win0_1.index t (1 : Fin 2) * 64 + 1 * (x 1).val = (x 1).val; omega

/-- One element of a written block: the block product at (p, c) of a feature block that is rows 5000 b + · of `X` and a
    weight block that is `W` is `Dense.proj128 X W` at (5000 b + p, c). -/
theorem block0_point (X : S100000x128.Idx → EReal) (W : S128x64.Idx → EReal)
    (a : Vec Ideal S5000x128 .f32) (w : Vec Ideal S128x64 .f32) (b : ℕ)
    (ha : ∀ (x : S5000x128.Idx) (j : S100000x128.Idx), (j 0).val = b * 5000 + (x 0).val → (j 1).val = (x 1).val → a x = X j)
    (hw : ∀ x : S128x64.Idx, w x = W x)
    (y : S5000x64.Idx) (i : S100000x64.Idx) (hi0 : (i 0).val = b * 5000 + (y 0).val) (hi1 : (i 1).val = (y 1).val) :
    k0_pay1 (F := Ideal) a w y = Cert.Dense.proj128 X W i := by
  obtain ⟨p, q, rfl⟩ : ∃ (p : Fin 5000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hi1
  rw [pay0_apply, Cert.Dense.proj128_apply]
  exact Finset.sum_congr rfl fun k _ => by rw [ha (ix2 p k) (ix2 r k) hi0 rfl, hw (ix2 k s)]

/-- WHAT POINT t WRITES BACK is block t of `Dense.proj128` of the two arrays as the region finds them. -/
theorem flushed0_eq (c : Dev nD) (t : Fin cfg0.N) :
    (dat0 V c).flushed 2 t
      = ((cfg0.win 2).blk t).view.read (Elt Ideal) (Cert.Dense.proj128 (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e4, e5⟩ := idx_facts0 t
  funext y
  refine block0_point (V c main_arg0) (V c main_arg4) (iblk0 V c 0 t) (iblk0 V c 1 t) t.val
    (fun x j h0 h1 => iblk0_0_apply V c t x j h0 h1) (fun x => iblk0_1_apply V c t x) y _ ?_ ?_
  · show win0_2.index t (0 : Fin 2) * 5000 + 1 * (y 0).val = t.val * 5000 + (y 0).val; omega
  · show win0_2.index t (1 : Fin 2) * 64 + 1 * (y 1).val = (y 1).val; omega

/-- An index of the result array is in point t's block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every row of the result array is in the block of the point its row block names. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE RESULT ARRAY after the region: the features times the weights, of the arrays as the region finds them. -/
theorem final0 (c : Dev nD) :
    (dat0 V c).arrAt 2 cfg0.N = Cert.Dense.proj128 (V c main_arg0) (V c main_arg4) :=
  (dat0 V c).arrAt_eq_of_cover 2 _ (fun t _ => flushed0_eq V c t) cover0

end Cert.KernelIdeal.Hand

end
-- ==== Proof.Pay1.lean ====
/-
  The second projection's block product, read at coordinates.

  At the ideal values the body of the second kernel takes a [5000, 64] block `a` of the aggregated features and the whole
  [64, 32] weight matrix `w`, rectifies the block against zero, rounds both to bf16 (the identity on the extended reals),
  multiplies them into a zero accumulator and rounds the result (the identity). So the stored block is, at (p, c),

      ∑ k : Fin 64, max (a (p, k)) 0 · w (k, c),

  the zero being the f32 word the body broadcasts.
-/
import proofs.«101274_j88467736363911_2_alg».proof.Proof.Gen.KernelIdeal.Skeleton
import proofs.«101274_j88467736363911_2_alg».proof.Proof.LibPlainDot
import Idealize.ShloMosaic.Lib.ValueIdx
import Idealize.ShloMosaic.Lib.Pipeline.Value

noncomputable section

namespace Cert.KernelIdeal.Hand

open Cert.KernelIdeal Cert.KernelIdeal.Gen Idealize.ShloMosaic Idealize.ShloMosaic.ValueIdx

/-- The dot's left operand index at output index `i` and contraction position `q` is `(i 0, q)`, its right one `(q, i 1)`. -/
theorem dot1_l0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem dot1_l1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem dot1_r0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem dot1_r1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The rectified block the product's left operand is: the block against the broadcast zero, elementwise. -/
def rect (a : Vec Ideal S5000x64 .f32) : FVec Ideal S5000x64 .bf16 :=
  fun j => max (a j) (Ideal.ofBits .f32 0x00000000#32)

/-- The stored block is the product of the rectified block with the weights into the zero accumulator. -/
theorem pay1_eq (a : Vec Ideal S5000x64 .f32) (w : Vec Ideal S64x32 .f32) :
    k1_pay1 (F := Ideal) a w
      = FloatOps.matmul (φ₁ := .bf16) (φ₂ := .bf16) dot_S5000x64_S64x32_S5000x32_1_0_0_1_n_n none (rect a) w
          (constant (F := Ideal) S5000x32 .f32 0x00000000#32) := by
  unfold k1_pay1 rect
  rw [shapeCast_self]
  rfl

/-- The stored block at (p, c): the rectified row `p` of the feature block against the column `c` of the weights. -/
theorem pay1_apply (a : Vec Ideal S5000x64 .f32) (w : Vec Ideal S64x32 .f32) (p : Fin 5000) (c : Fin 32) :
    k1_pay1 (F := Ideal) a w (ix2 p c)
      = ∑ k : Fin 64, max (a (ix2 p k)) (Ideal.ofBits .f32 0x00000000#32) * w (ix2 k c) := by
  rw [pay1_eq]
  exact Cert.Lib.PlainDot.matmul_zero_ix2 (M := 5000) (K := 64) (N := 32) (φ₁ := .bf16) (φ₂ := .bf16)
    dot_S5000x64_S64x32_S5000x32_1_0_0_1_n_n rfl rfl dot1_l0 dot1_l1 dot1_r0 dot1_r1 none (rect a) w p c

end Cert.KernelIdeal.Hand

end
-- ==== Proof.Region1.lean ====
/-
  What the second kernel region leaves in its result array: the rectified aggregated features times the second weight
  matrix.

  The region runs over 20 points; point t takes rows 5000 t … 5000 t + 4999 of the aggregated features (window 0), the
  whole weight matrix (window 1), and writes rows 5000 t … 5000 t + 4999 of the result (window 2). The block it writes
  is the block product of `Pay1`, which is those rows of `Dense.reluProj64` of the two arrays as the region finds them;
  the 20 row blocks cover the result array, so the array ends holding `Dense.reluProj64` of them.
-/
import proofs.«101274_j88467736363911_2_alg».proof.Proof.Gen.KernelIdeal.Frame
import proofs.«101274_j88467736363911_2_alg».proof.Proof.Pay1
import proofs.«101274_j88467736363911_2_alg».proof.Proof.Dense
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

theorem hz1 : (![0, 0] : Fin 2 → Nat) = fun _ => 0 := funext fun a => by fin_cases a <;> rfl

/-- The block indices of the three windows at a point, decided over the grid: the feature and result windows are at
    row block t, the weight window at its one block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The feature window's block at point t, at (p, k), is the aggregated feature array at (5000 t + p, k). -/
theorem iblk1_0_apply (c : Dev nD) (t : Fin cfg1.N) (x : S5000x64.Idx) (j : S100000x64.Idx)
    (h0 : (j 0).val = t.val * 5000 + (x 0).val) (h1 : (j 1).val = (x 1).val) :
    (iblk1 V c 0 t : Vec Ideal S5000x64 .f32) x = (V c main_v14 : S100000x64.Idx → EReal) j := by
  obtain ⟨e0, e1, -⟩ := idx_facts1 t
  unfold iblk1
  rw [View.read_apply]
  show V c main_v14 _ = V c main_v14 _
  refine congrArg (V c main_v14) ?_
  funext a; apply Fin.ext
  match a with
  | ⟨0, _⟩ => show win1_0.index t (0 : Fin 2) * 5000 + 1 * (x 0).val = (j 0).val; omega
  | ⟨1, _⟩ => show win1_0.index t (1 : Fin 2) * 64 + 1 * (x 1).val = (j 1).val; omega

/-- The weight window's block at any point is the weight array. -/
theorem iblk1_1_apply (c : Dev nD) (t : Fin cfg1.N) (x : S64x32.Idx) :
    (iblk1 V c 1 t : Vec Ideal S64x32 .f32) x = (V c main_arg5 : S64x32.Idx → EReal) x := by
  obtain ⟨-, -, e2, e3, -⟩ := idx_facts1 t
  unfold iblk1
  rw [View.read_apply]
  show V c main_arg5 _ = V c main_arg5 _
  refine congrArg (V c main_arg5) ?_
  funext a; apply Fin.ext
  match a with
  | ⟨0, _⟩ => show win1_1.index t (0 : Fin 2) * 64 + 1 * (x 0).val = (x 0).val; omega
  | ⟨1, _⟩ => show win1_1.index t (1 : Fin 2) * 32 + 1 * (x 1).val = (x 1).val; omega

/-- One element of a written block: the block product at (p, c) of a feature block that is rows 5000 b + · of `H` and a
    weight block that is `W` is `Dense.reluProj64 H W` at (5000 b + p, c). -/
theorem block1_point (H : S100000x64.Idx → EReal) (W : S64x32.Idx → EReal)
    (a : Vec Ideal S5000x64 .f32) (w : Vec Ideal S64x32 .f32) (b : ℕ)
    (ha : ∀ (x : S5000x64.Idx) (j : S100000x64.Idx), (j 0).val = b * 5000 + (x 0).val → (j 1).val = (x 1).val → a x = H j)
    (hw : ∀ x : S64x32.Idx, w x = W x)
    (y : S5000x32.Idx) (i : S100000x32.Idx) (hi0 : (i 0).val = b * 5000 + (y 0).val) (hi1 : (i 1).val = (y 1).val) :
    k1_pay1 (F := Ideal) a w y = Cert.Dense.reluProj64 H W i := by
  obtain ⟨p, q, rfl⟩ : ∃ (p : Fin 5000) (q : Fin 32), y = ix2 p q := ⟨y 0, y 1, eq_ix2 y⟩
  obtain ⟨r, s, rfl⟩ : ∃ (r : Fin 100000) (s : Fin 32), i = ix2 r s := ⟨i 0, i 1, eq_ix2 i⟩
  obtain rfl : s = q := Fin.ext hi1
  rw [pay1_apply, Cert.Dense.reluProj64_apply]
  exact Finset.sum_congr rfl fun k _ => by rw [ha (ix2 p k) (ix2 r k) hi0 rfl, hw (ix2 k s)]

/-- WHAT POINT t WRITES BACK is block t of `Dense.reluProj64` of the two arrays as the region finds them. -/
theorem flushed1_eq (c : Dev nD) (t : Fin cfg1.N) :
    (dat1 V c).flushed 2 t
      = ((cfg1.win 2).blk t).view.read (Elt Ideal) (Cert.Dense.reluProj64 (V c main_v14) (V c main_arg5)) := by
  show (cfg1.win 2).cut (grid1.coords t) ((dat1 V c).after 2 t) = _
  rw [after1_2]
  unfold out1_2
  rw [View.canon_unit_zero hz1]
  simp only [View.ld_unit_zero (S := S5000x64) hz1, View.ld_unit_zero (S := S64x32) hz1]
  obtain ⟨-, -, -, -, e4, e5⟩ := idx_facts1 t
  funext y
  refine block1_point (V c main_v14) (V c main_arg5) (iblk1 V c 0 t) (iblk1 V c 1 t) t.val
    (fun x j h0 h1 => iblk1_0_apply V c t x j h0 h1) (fun x => iblk1_1_apply V c t x) y _ ?_ ?_
  · show win1_2.index t (0 : Fin 2) * 5000 + 1 * (y 0).val = t.val * 5000 + (y 0).val; omega
  · show win1_2.index t (1 : Fin 2) * 32 + 1 * (y 1).val = (y 1).val; omega

/-- An index of the result array is in point t's block iff each coordinate is in the block's range on its axis. -/
theorem mem_blk1 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v15).slice (win1_2.rect t)).set ↔ _
  rw [View.set_slice_whole, Rect.mem_set_unit]
  exact Iff.rfl

/-- Every row of the result array is in the block of the point its row block names. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- THE RESULT ARRAY after the region: the rectified features times the weights, of the arrays as the region finds them. -/
theorem final1 (c : Dev nD) :
    (dat1 V c).arrAt 2 cfg1.N = Cert.Dense.reluProj64 (V c main_v14) (V c main_arg5) :=
  (dat1 V c).arrAt_eq_of_cover 2 _ (fun t _ => flushed1_eq V c t) cover1

end Cert.KernelIdeal.Hand

end
-- ==== Proof.KernelRun.lean ====
/-
  The run of the kernel's program with its result named.

  The program is two kernel regions among two stretches of host operations. The generated frame already states the
  buffer contents at every boundary between them (`W0` … `W4`) and every segment of the run; here the same launch is
  read once more at the end, at the result buffer as well as at the arguments: every weakly fair execution terminates
  with the result buffer at the last boundary's contents `W4` of it, and the arguments as launched.
-/
import proofs.«101274_j88467736363911_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the contents the
    last boundary gives it and the argument arrays as launched. -/
theorem run_named : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Hand

end
-- ==== Proof.KernelValue.lean ====
/-
  The kernel program's result as one function of its arguments.

  Reading the boundary contents back from the end: the result buffer is the second sparse product of what the second
  region left (`Region1`: the rectified second projection of what it found), which found the first sparse product of
  what the first region left (`Region0`: the first projection of the launch contents); no segment writes an argument
  it does not own, so every argument read on the way is the launch memory's. So the result is

      spmm32 (reluProj64 (spmm64 (proj128 x w1) row col val) w2) row col val.
-/
import proofs.«101274_j88467736363911_2_alg».proof.Proof.Gen.KernelIdeal.Frame
import proofs.«101274_j88467736363911_2_alg».proof.Proof.Tails
import proofs.«101274_j88467736363911_2_alg».proof.Proof.Region0
import proofs.«101274_j88467736363911_2_alg».proof.Proof.Region1
import proofs.«101274_j88467736363911_2_alg».proof.Proof.KernelRun

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg)

/-- The program's result as a function of the launch memory's argument arrays. -/
def result (c : Dev nD) : Buf (Elt Ideal) ((c.tc : Thread nD τ).loc main_v29) :=
  spmm32
    (Cert.Dense.reluProj64
      (spmm64 (Cert.Dense.proj128 (m ((c.tc : Thread nD τ).loc main_arg0)) (m ((c.tc : Thread nD τ).loc main_arg4)))
        (m ((c.tc : Thread nD τ).loc main_arg1)) (m ((c.tc : Thread nD τ).loc main_arg2)) (m ((c.tc : Thread nD τ).loc main_arg3)))
      (m ((c.tc : Thread nD τ).loc main_arg5)))
    (m ((c.tc : Thread nD τ).loc main_arg1)) (m ((c.tc : Thread nD τ).loc main_arg2)) (m ((c.tc : Thread nD τ).loc main_arg3))

/-! ## After the first region -/

theorem W1_v0 (c : Dev nD) : W1 m ρ c (Proc.devRef .tc main_v0)
    = Cert.Dense.proj128 (m ((c.tc : Thread nD τ).loc main_arg0)) (m ((c.tc : Thread nD τ).loc main_arg4)) :=
  (W1_arr m ρ c 2).trans (final0 (V0 m ρ) c)
theorem W1_arg1 (c : Dev nD) : W1 m ρ c (Proc.devRef .tc main_arg1) = m ((c.tc : Thread nD τ).loc main_arg1) :=
  W1_of_ne m ρ c main_arg1 (by decide)
theorem W1_arg2 (c : Dev nD) : W1 m ρ c (Proc.devRef .tc main_arg2) = m ((c.tc : Thread nD τ).loc main_arg2) :=
  W1_of_ne m ρ c main_arg2 (by decide)
theorem W1_arg3 (c : Dev nD) : W1 m ρ c (Proc.devRef .tc main_arg3) = m ((c.tc : Thread nD τ).loc main_arg3) :=
  W1_of_ne m ρ c main_arg3 (by decide)
theorem W1_arg5 (c : Dev nD) : W1 m ρ c (Proc.devRef .tc main_arg5) = m ((c.tc : Thread nD τ).loc main_arg5) :=
  W1_of_ne m ρ c main_arg5 (by decide)

/-! ## After the first stretch of host operations -/

theorem W2_v14 (c : Dev nD) : W2 m ρ c (Proc.devRef .tc main_v14)
    = spmm64 (Cert.Dense.proj128 (m ((c.tc : Thread nD τ).loc main_arg0)) (m ((c.tc : Thread nD τ).loc main_arg4)))
        (m ((c.tc : Thread nD τ).loc main_arg1)) (m ((c.tc : Thread nD τ).loc main_arg2)) (m ((c.tc : Thread nD τ).loc main_arg3)) := by
  refine (after1_v14 (W1 m ρ c)).trans ?_
  rw [W1_v0, W1_arg1, W1_arg2, W1_arg3]
theorem W2_arg1 (c : Dev nD) : W2 m ρ c (Proc.devRef .tc main_arg1) = m ((c.tc : Thread nD τ).loc main_arg1) :=
  (after1_arg1 (W1 m ρ c)).trans (W1_arg1 m ρ c)
theorem W2_arg2 (c : Dev nD) : W2 m ρ c (Proc.devRef .tc main_arg2) = m ((c.tc : Thread nD τ).loc main_arg2) :=
  (after1_arg2 (W1 m ρ c)).trans (W1_arg2 m ρ c)
theorem W2_arg3 (c : Dev nD) : W2 m ρ c (Proc.devRef .tc main_arg3) = m ((c.tc : Thread nD τ).loc main_arg3) :=
  (after1_arg3 (W1 m ρ c)).trans (W1_arg3 m ρ c)
theorem W2_arg5 (c : Dev nD) : W2 m ρ c (Proc.devRef .tc main_arg5) = m ((c.tc : Thread nD τ).loc main_arg5) :=
  (after1_arg5 (W1 m ρ c)).trans (W1_arg5 m ρ c)

/-! ## After the second region -/

theorem W3_v15 (c : Dev nD) : W3 m ρ c (Proc.devRef .tc main_v15)
    = Cert.Dense.reluProj64
        (spmm64 (Cert.Dense.proj128 (m ((c.tc : Thread nD τ).loc main_arg0)) (m ((c.tc : Thread nD τ).loc main_arg4)))
          (m ((c.tc : Thread nD τ).loc main_arg1)) (m ((c.tc : Thread nD τ).loc main_arg2)) (m ((c.tc : Thread nD τ).loc main_arg3)))
        (m ((c.tc : Thread nD τ).loc main_arg5)) := by
  refine ((W3_arr m ρ c 2).trans (final1 (V2 m ρ) c)).trans ?_
  show Cert.Dense.reluProj64 (W2 m ρ c (Proc.devRef .tc main_v14)) (W2 m ρ c (Proc.devRef .tc main_arg5)) = _
  rw [W2_v14, W2_arg5]
theorem W3_arg1 (c : Dev nD) : W3 m ρ c (Proc.devRef .tc main_arg1) = m ((c.tc : Thread nD τ).loc main_arg1) :=
  (W3_of_ne m ρ c main_arg1 (by decide)).trans (W2_arg1 m ρ c)
theorem W3_arg2 (c : Dev nD) : W3 m ρ c (Proc.devRef .tc main_arg2) = m ((c.tc : Thread nD τ).loc main_arg2) :=
  (W3_of_ne m ρ c main_arg2 (by decide)).trans (W2_arg2 m ρ c)
theorem W3_arg3 (c : Dev nD) : W3 m ρ c (Proc.devRef .tc main_arg3) = m ((c.tc : Thread nD τ).loc main_arg3) :=
  (W3_of_ne m ρ c main_arg3 (by decide)).trans (W2_arg3 m ρ c)

/-! ## After the second stretch: the result -/

/-- The last boundary's contents of the result buffer are `result`. -/
theorem W4_v29 (c : Dev nD) : W4 m ρ c (Proc.devRef .tc main_v29) = result m c := by
  refine (after2_v29 (W3 m ρ c)).trans ?_
  rw [W3_v15, W3_arg1, W3_arg2, W3_arg3]
  rfl

/-- The run, read: every weakly fair execution of the kernel's program terminates with the result buffer at `result`
    and the arguments as launched. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (W4_v29 m ρ c), (h c).2⟩) (run_named m ρ)

end Cert.KernelIdeal.Hand

end
-- ==== Proof.LibHostDot.lean ====
/-
  A host matrix product, read at coordinates.

  For a host `dot_general` of a `[M, K]` matrix with a `[K, N]` matrix whose dimension numbers contract the left operand's
  second axis with the right operand's first and keep the other two in order, the product is, at `(p, c)`,

      ∑ k : Fin K, l (p, k) · r (k, c)

  on the extended reals, whatever the schedule key. The dimension record enters only through four facts about its operand
  indices — the left index at output index `i` and contraction position `q` is `(i 0, q)`, the right one `(q, i 1)` —
  which a concrete record proves by unfolding; with them the sum over the record's one-axis contraction shape is
  re-indexed over `Fin K`.
-/
import Idealize.ShloMosaic.PureOps.Ideal.Laws
import Idealize.ShloMosaic.Lib.ValueIdx

namespace Cert.Lib.HostDot

open Idealize.ShloMosaic Idealize.ShloMosaic.ValueIdx

/-- The host product of an `[M, K]` and a `[K, N]` matrix at `(p, c)`: the sum over `k` of `l (p, k) · r (k, c)`. -/
theorem dotGeneral_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (sched : HostSchedule)
    (l : FVec Ideal ⟨2, ![M, K]⟩ φ₁) (r : FVec Ideal ⟨2, ![K, N]⟩ φ₂) (p : Fin M) (c : Fin N) :
    FloatOps.dotGeneral D prec sched l r (ix2 p c) = ∑ k : Fin K, l (ix2 p k) * r (ix2 k c) := by
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.HostDot
-- ==== Proof.RefSide.lean ====
/-
  The reference's two dense layers are the functions of `Dense`.

  On the host the first layer is one `dot_general` of the node features with the first weight matrix, which at (r, c) is
  the sum over k of X (r, k) · W (k, c): `Dense.proj128`. The second is a `dot_general` of the rectified aggregated
  features — their elementwise maximum with a broadcast zero — with the second weight matrix: `Dense.reluProj64`, the
  zero being the same f32 word.
-/
import proofs.«101274_j88467736363911_2_alg».proof.Proof.Gen.ReferenceIdeal.Run
import proofs.«101274_j88467736363911_2_alg».proof.Proof.Gen.ReferenceIdeal.Read
import proofs.«101274_j88467736363911_2_alg».proof.Proof.LibHostDot
import proofs.«101274_j88467736363911_2_alg».proof.Proof.Dense

noncomputable section

namespace Cert.ReferenceIdeal.Hand

open Cert.ReferenceIdeal Cert.ReferenceIdeal.Gen Cert.ReferenceIdeal.Read Idealize.ShloMosaic Idealize.ShloMosaic.ValueIdx

/-- The host's first product is the node features times the first weight matrix. -/
theorem dot1_eq (X : FVec Ideal S100000x128 .f32) (W : FVec Ideal S128x64 .f32) :
    Host.dotGeneral (F := Ideal) dot_S100000x128_S128x64_S100000x64_1_0_0_1_n_n none X W = Cert.Dense.proj128 X W := by
  funext i
  obtain ⟨r, c, rfl⟩ : ∃ (r : Fin 100000) (c : Fin 64), i = ix2 r c := ⟨i 0, i 1, eq_ix2 i⟩
  rw [Cert.Dense.proj128_apply]
  exact Cert.Lib.HostDot.dotGeneral_ix2 (M := 100000) (K := 128) (N := 64) dot_S100000x128_S128x64_S100000x64_1_0_0_1_n_n rfl rfl
    lhs_main_v0_0 lhs_main_v0_1 rhs_main_v0_0 rhs_main_v0_1 none .single X W r c

/-- The host's second product, of the features rectified against the broadcast zero, is the rectified features times
    the second weight matrix. -/
theorem dot2_eq (H : FVec Ideal S100000x64 .f32) (W : FVec Ideal S64x32 .f32) :
    Host.dotGeneral (F := Ideal) dot_S100000x64_S64x32_S100000x32_1_0_0_1_n_n none
        (maximumf H (broadcastInDim S100000x64 ![] bcast_S_S100000x64 (constant (F := Ideal) S_ .f32 0x00000000#32))) W
      = Cert.Dense.reluProj64 H W := by
  funext i
  obtain ⟨r, c, rfl⟩ : ∃ (r : Fin 100000) (c : Fin 32), i = ix2 r c := ⟨i 0, i 1, eq_ix2 i⟩
  rw [Cert.Dense.reluProj64_apply]
  refine (Cert.Lib.HostDot.dotGeneral_ix2 (M := 100000) (K := 64) (N := 32) dot_S100000x64_S64x32_S100000x32_1_0_0_1_n_n rfl rfl
    lhs_main_v15_0 lhs_main_v15_1 rhs_main_v15_0 rhs_main_v15_1 none .single _ W r c).trans ?_
  refine Finset.sum_congr rfl fun k _ => ?_
  refine congrArg (· * W (ix2 k c)) ?_
  show max (H (ix2 r k)) _ = max (H (ix2 r k)) _
  refine congrArg (max (H (ix2 r k))) ?_
  exact broadcastInDim_apply _ bcast_S_S100000x64 (constant (F := Ideal) S_ .f32 0x00000000#32) (ix2 r k) (fun a => a.elim0) (fun a => a.elim0)

end Cert.ReferenceIdeal.Hand

end
-- ==== Proof.lean ====
/-
  Two-layer graph convolution: the tiled kernel program against the plain reference, on the extended reals.

  Both programs compute  out = A · (relu (A · (x · w1)) · w2)  where A is the sparse matrix given by the edge lists:
  A · h  at row r is the sum over the edges e with row e = r of val e · h[col e].

  * The kernel's program computes each dense product in a kernel region tiled over 20 row blocks, rounding the operands and
    the product to bf16 (the identity on the extended reals), the second region rectifying its input block first; the two
    sparse products are host operations, which gather from the bf16 product and widen it (the identity again).
  * The reference computes each dense product by one host `dot_general`, rectifies with a host maximum against a broadcast
    zero, and applies the same host operations for the sparse products.

  The kernel program's result array is read off its run boundary by boundary (`KernelValue`), each region's result array
  being one whole-array function of what the region finds (`Region0`, `Region1`: `Dense.proj128`, `Dense.reluProj64`);
  the reference's two `dot_general`s are the same two functions (`RefSide`). What is left is that the two sparse
  products are spelt alike in both programs, up to the widening that is the identity. No step needs the inputs finite:
  every equation is between the same sums of the same products.
-/
import proofs.«101274_j88467736363911_2_alg».proof.Defs
import proofs.«101274_j88467736363911_2_alg».proof.Proof.Gen.Kernel
import proofs.«101274_j88467736363911_2_alg».proof.Proof.Gen.Kernel.Frame
import proofs.«101274_j88467736363911_2_alg».proof.Proof.Gen.KernelIdeal
import proofs.«101274_j88467736363911_2_alg».proof.Proof.Gen.KernelIdeal.Frame
import proofs.«101274_j88467736363911_2_alg».proof.Proof.Gen.ReferenceIdeal
import proofs.«101274_j88467736363911_2_alg».proof.Proof.Gen.ReferenceIdeal.Run
import proofs.«101274_j88467736363911_2_alg».proof.Proof.Gen.Pre_finite_inputs
import proofs.«101274_j88467736363911_2_alg».proof.Proof.KernelValue
import proofs.«101274_j88467736363911_2_alg».proof.Proof.RefSide
import Idealize.ShloMosaic.Adequacy
import Idealize.ShloMosaic.Init

noncomputable section

namespace Cert.Proof

open Idealize.ShloMosaic Idealize.SL.Sem

/-- The kernel's program runs and leaves its arguments as launched: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- From memories agreeing on the arguments both programs end with the same result array: the kernel's is
    `spmm32 (reluProj64 (spmm64 (proj128 x w1) …) w2) …` (`KernelValue.run`); the reference's two host products are
    `proj128` and `reluProj64` (`RefSide`), and its two sparse products are the kernel's, the widening of the gathered
    rows being the identity. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [h0, h1, h2, h3, h4, h5, Cert.ReferenceIdeal.Hand.dot1_eq, Cert.ReferenceIdeal.Hand.dot2_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
